-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S_ : Shape := ⟨0, ![]⟩

class Facts : Prop where
  bcast_S_S100000x81 : S_.BroadcastsInDim S100000x81 (![] : Fin 0 → Fin S100000x81.rank)
  reducesTo_S100000x81_S_d0_1 : S100000x81.ReducesTo [0, 1] S_
  h_S_ : 0 < S_.numel
  bcast_S_S800000x22 : S_.BroadcastsInDim S800000x22 (![] : Fin 0 → Fin S800000x22.rank)
  reducesTo_S800000x22_S_d0_1 : S800000x22.ReducesTo [0, 1] S_
  bcast_S_S81x64 : S_.BroadcastsInDim S81x64 (![] : Fin 0 → Fin S81x64.rank)
  reducesTo_S81x64_S_d0_1 : S81x64.ReducesTo [0, 1] S_
  bcast_S_S103x64 : S_.BroadcastsInDim S103x64 (![] : Fin 0 → Fin S103x64.rank)
  reducesTo_S103x64_S_d0_1 : S103x64.ReducesTo [0, 1] S_

variable [Facts]

def fn_part1 {F : FTy → Type} [FloatOps F] (main_v13 : IVec S_ 1) (main_v16 : IVec S103x64 1) : IVec S_ 1 :=
  let main_c_5 : IVec S_ 1 := constantI S_ 1 1#1
  let main_v17 : IVec S_ 1 := (fun x v => Host.reduce IntOp.andi x v reducesTo_S103x64_S_d0_1 h_S_) main_v16 main_c_5
  let main_v18 : IVec S_ 1 := andi main_v13 main_v17
  main_v18

def fn {F : FTy → Type} [FloatOps F] (main_arg0 : FVec F S100000x81 .f32) (main_arg1 : FVec F S800000x22 .f32) (main_arg2 : FVec F S81x64 .f32) (main_arg3 : FVec F S103x64 .f32) (main_arg4 : IVec S800000 32) (main_arg5 : IVec S800000 32) : IVec S_ 1 :=
  let main_v0 : FVec F S100000x81 .f32 := Host.absf main_arg0
  let main_cst : FVec F S_ .f32 := constant S_ .f32 0x7F800000#32
  let main_v1 : FVec F S100000x81 .f32 := broadcastInDim S100000x81 ![] bcast_S_S100000x81 main_cst
  let main_v2 : IVec S100000x81 1 := cmpf .olt main_v0 main_v1
  let main_c : IVec S_ 1 := constantI S_ 1 1#1
  let main_v3 : IVec S_ 1 := (fun x v => Host.reduce IntOp.andi x v reducesTo_S100000x81_S_d0_1 h_S_) main_v2 main_c
  let main_v4 : FVec F S800000x22 .f32 := Host.absf main_arg1
  let main_cst_0 : FVec F S_ .f32 := constant S_ .f32 0x7F800000#32
  let main_v5 : FVec F S800000x22 .f32 := broadcastInDim S800000x22 ![] bcast_S_S800000x22 main_cst_0
  let main_v6 : IVec S800000x22 1 := cmpf .olt main_v4 main_v5
  let main_c_1 : IVec S_ 1 := constantI S_ 1 1#1
  let main_v7 : IVec S_ 1 := (fun x v => Host.reduce IntOp.andi x v reducesTo_S800000x22_S_d0_1 h_S_) main_v6 main_c_1
  let main_v8 : IVec S_ 1 := andi main_v3 main_v7
  let main_v9 : FVec F S81x64 .f32 := Host.absf main_arg2
  let main_cst_2 : FVec F S_ .f32 := constant S_ .f32 0x7F800000#32
  let main_v10 : FVec F S81x64 .f32 := broadcastInDim S81x64 ![] bcast_S_S81x64 main_cst_2
  let main_v11 : IVec S81x64 1 := cmpf .olt main_v9 main_v10
  let main_c_3 : IVec S_ 1 := constantI S_ 1 1#1
  let main_v12 : IVec S_ 1 := (fun x v => Host.reduce IntOp.andi x v reducesTo_S81x64_S_d0_1 h_S_) main_v11 main_c_3
  let main_v13 : IVec S_ 1 := andi main_v8 main_v12
  let main_v14 : FVec F S103x64 .f32 := Host.absf main_arg3
  let main_cst_4 : FVec F S_ .f32 := constant S_ .f32 0x7F800000#32
  let main_v15 : FVec F S103x64 .f32 := broadcastInDim S103x64 ![] bcast_S_S103x64 main_cst_4
  let main_v16 : IVec S103x64 1 := cmpf .olt main_v14 main_v15
  fn_part1 (F := F) main_v13 main_v16
-- ==== Kernel.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S_ : Shape := ⟨0, ![]⟩
abbrev S800000x1 : Shape := ⟨2, ![800000, 1]⟩
abbrev S800000x81 : Shape := ⟨2, ![800000, 81]⟩
abbrev S3x64 : Shape := ⟨2, ![3, 64]⟩
abbrev S78x64 : Shape := ⟨2, ![78, 64]⟩
abbrev S22x64 : Shape := ⟨2, ![22, 64]⟩
abbrev S800000x64 : Shape := ⟨2, ![800000, 64]⟩
abbrev S4000x81 : Shape := ⟨2, ![4000, 81]⟩
abbrev S4000x22 : Shape := ⟨2, ![4000, 22]⟩
abbrev S4000x64 : Shape := ⟨2, ![4000, 64]⟩
abbrev S4000x3 : Shape := ⟨2, ![4000, 3]⟩
abbrev S4000 : Shape := ⟨1, ![4000]⟩
abbrev S4000x1 : Shape := ⟨2, ![4000, 1]⟩
abbrev S4000x78 : Shape := ⟨2, ![4000, 78]⟩
abbrev S100000x64 : Shape := ⟨2, ![100000, 64]⟩
abbrev S10000x81 : Shape := ⟨2, ![10000, 81]⟩
abbrev S10000x64 : Shape := ⟨2, ![10000, 64]⟩

abbrev nBuf : Space → Nat
  | .hbm => 34
  | .vmem => 16
  | .smem => 0
  | _ => 0

abbrev bufTy : (tb : Table) → Fin (tcTables nBuf tb) → BufTy
  | .hbm, ⟨0, _⟩ => ⟨S100000x81, .f32⟩
  | .hbm, ⟨1, _⟩ => ⟨S800000x22, .f32⟩
  | .hbm, ⟨2, _⟩ => ⟨S81x64, .f32⟩
  | .hbm, ⟨3, _⟩ => ⟨S103x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x81, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x81, .f32⟩
  | .hbm, ⟨24, _⟩ => ⟨S3x64, .f32⟩
  | .hbm, ⟨25, _⟩ => ⟨S78x64, .f32⟩
  | .hbm, ⟨26, _⟩ => ⟨S22x64, .f32⟩
  | .hbm, ⟨27, _⟩ => ⟨S800000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S800000x1, .i32⟩
  | .hbm, ⟨32, _⟩ => ⟨S100000x64, .f32⟩
  | .hbm, ⟨33, _⟩ => ⟨S100000x64, .f32⟩
  | .local _ .vmem, ⟨0, _⟩ => ⟨S4000x81, .f32⟩
  | .local _ .vmem, ⟨1, _⟩ => ⟨S4000x81, .f32⟩
  | .local _ .vmem, ⟨2, _⟩ => ⟨S4000x81, .f32⟩
  | .local _ .vmem, ⟨3, _⟩ => ⟨S4000x81, .f32⟩
  | .local _ .vmem, ⟨4, _⟩ => ⟨S4000x22, .f32⟩
  | .local _ .vmem, ⟨5, _⟩ => ⟨S4000x22, .f32⟩
  | .local _ .vmem, ⟨6, _⟩ => ⟨S3x64, .f32⟩
  | .local _ .vmem, ⟨7, _⟩ => ⟨S78x64, .f32⟩
  | .local _ .vmem, ⟨8, _⟩ => ⟨S22x64, .f32⟩
  | .local _ .vmem, ⟨9, _⟩ => ⟨S4000x64, .f32⟩
  | .local _ .vmem, ⟨10, _⟩ => ⟨S4000x64, .f32⟩
  | .local _ .vmem, ⟨11, _⟩ => ⟨S10000x81, .f32⟩
  | .local _ .vmem, ⟨12, _⟩ => ⟨S10000x81, .f32⟩
  | .local _ .vmem, ⟨13, _⟩ => ⟨S81x64, .f32⟩
  | .local _ .vmem, ⟨14, _⟩ => ⟨S10000x64, .f32⟩
  | .local _ .vmem, ⟨15, _⟩ => ⟨S10000x64, .f32⟩
  | _, _ => ⟨S100000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x22 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S78x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S22x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S81x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S103x64_S3x64_0_0 : S103x64.Slices ![0, 0] S3x64
  slices_S103x64_S78x64_3_0 : S103x64.Slices ![3, 0] S78x64
  slices_S103x64_S22x64_81_0 : S103x64.Slices ![81, 0] S22x64
  inb_S4000x81_S4000x81_0_0 : ∀ a, (![0, 0] : Fin 2 → Nat) a + S4000x81.size a ≤ S4000x81.size a
  h_S4000x81 : 0 < S4000x81.numel
  shapeCasts_S4000x81_S4000x81 : S4000x81.ShapeCasts S4000x81
  inb_S4000x22_S4000x22_0_0 : ∀ a, (![0, 0] : Fin 2 → Nat) a + S4000x22.size a ≤ S4000x22.size a
  h_S4000x22 : 0 < S4000x22.numel
  slices_S4000x81_o0_0_S4000x3 : S4000x81.Slices ![0, 0] S4000x3
  reduces_S4000x3_S4000 : S4000x3.Reduces [1] S4000
  shapeCasts_S4000_S4000x1 : S4000.ShapeCasts S4000x1
  broadcasts_S4000x1_S4000x3 : S4000x1.Broadcasts S4000x3
  slices_S4000x81_o0_3_S4000x78 : S4000x81.Slices ![0, 3] S4000x78
  broadcasts_S4000x1_S4000x78 : S4000x1.Broadcasts S4000x78
  inb_S3x64_S3x64_0_0 : ∀ a, (![0, 0] : Fin 2 → Nat) a + S3x64.size a ≤ S3x64.size a
  h_S3x64 : 0 < S3x64.numel
  shapeCasts_S3x64_S3x64 : S3x64.ShapeCasts S3x64
  bitsLt_bf16_f32 : FTy.bits .bf16 < FTy.bits .f32
  inb_S78x64_S78x64_0_0 : ∀ a, (![0, 0] : Fin 2 → Nat) a + S78x64.size a ≤ S78x64.size a
  h_S78x64 : 0 < S78x64.numel
  shapeCasts_S78x64_S78x64 : S78x64.ShapeCasts S78x64
  inb_S22x64_S22x64_0_0 : ∀ a, (![0, 0] : Fin 2 → Nat) a + S22x64.size a ≤ S22x64.size a
  h_S22x64 : 0 < S22x64.numel
  shapeCasts_S22x64_S22x64 : S22x64.ShapeCasts S22x64
  inb_S4000x64_S4000x64_0_0 : ∀ a, (![0, 0] : Fin 2 → Nat) a + S4000x64.size a ≤ S4000x64.size a
  h_S4000x64 : 0 < S4000x64.numel
  inb_S10000x81_S10000x81_0_0 : ∀ a, (![0, 0] : Fin 2 → Nat) a + S10000x81.size a ≤ S10000x81.size a
  h_S10000x81 : 0 < S10000x81.numel
  inb_S81x64_S81x64_0_0 : ∀ a, (![0, 0] : Fin 2 → Nat) a + S81x64.size a ≤ S81x64.size a
  h_S81x64 : 0 < S81x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  gather_S100000x81_S800000x1_S800000x81_1_0_n_n_0_1_181_wf : GatherDims.WF S100000x81 S800000x1 S800000x81 [1] [0] [] [0] [] 1 ![1, 81]
  dot_S4000x3_S3x64_S4000x64_1_0_0_1_n_n_wf : DotDims.WF S4000x3 S3x64 S4000x64 [1] [0] [0] [1] [] []
  dot_S4000x78_S78x64_S4000x64_1_0_0_1_n_n_wf : DotDims.WF S4000x78 S78x64 S4000x64 [1] [0] [0] [1] [] []
  dot_S4000x22_S22x64_S4000x64_1_0_0_1_n_n_wf : DotDims.WF S4000x22 S22x64 S4000x64 [1] [0] [0] [1] [] []
  dot_S10000x81_S81x64_S10000x64_1_0_0_1_n_n_wf : DotDims.WF S10000x81 S81x64 S10000x64 [1] [0] [0] [1] [] []
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x81.size a ≤ S800000x81.size a
  hwx0_0 : ∀ i : grid0.Coords, EltTy.bits .f32 = 32 ∨ (Rect.block (s := S800000x81) S4000x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x81.size a ≤ S800000x81.size a
  hwx0_1 : ∀ i : grid0.Coords, EltTy.bits .f32 = 32 ∨ (Rect.block (s := S800000x81) S4000x81.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x22.size a ≤ S800000x22.size a
  hwx0_2 : ∀ i : grid0.Coords, EltTy.bits .f32 = 32 ∨ (Rect.block (s := S800000x22) S4000x22.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S78x64.size a ≤ S78x64.size a
  hwx0_4 : ∀ i : grid0.Coords, EltTy.bits .f32 = 32 ∨ (Rect.block (s := S78x64) S78x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S22x64.size a ≤ S22x64.size a
  hwx0_5 : ∀ i : grid0.Coords, EltTy.bits .f32 = 32 ∨ (Rect.block (s := S22x64) S22x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S800000x64.size a
  hwx0_6 : ∀ i : grid0.Coords, EltTy.bits .f32 = 32 ∨ (Rect.block (s := S800000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x81.size a ≤ S100000x81.size a
  hwx1_0 : ∀ i : grid1.Coords, EltTy.bits .f32 = 32 ∨ (Rect.block (s := S100000x81) S10000x81.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S81x64.size a ≤ S81x64.size a
  hwx1_1 : ∀ i : grid1.Coords, EltTy.bits .f32 = 32 ∨ (Rect.block (s := S81x64) S81x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x81_S800000x1_S800000x81_1_0_n_n_0_1_181 : GatherDims S100000x81 S800000x1 S800000x81 where
  offsetDims := [1]
  collapsedSliceDims := [0]
  operandBatchingDims := []
  startIndicesBatchingDims := []
  startIndexMap := [0]
  indexVectorDim := 1
  sliceSizes := ![1, 81]
  wf := gather_S100000x81_S800000x1_S800000x81_1_0_n_n_0_1_181_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def dot_S4000x78_S78x64_S4000x64_1_0_0_1_n_n : DotDims S4000x78 S78x64 S4000x64 where
  lhsContracting := [1]
  rhsContracting := [0]
  lhsNonContracting := [0]
  rhsNonContracting := [1]
  lhsBatch := []
  rhsBatch := []
  wf := dot_S4000x78_S78x64_S4000x64_1_0_0_1_n_n_wf
def dot_S4000x22_S22x64_S4000x64_1_0_0_1_n_n : DotDims S4000x22 S22x64 S4000x64 where
  lhsContracting := [1]
  rhsContracting := [0]
  lhsNonContracting := [0]
  rhsNonContracting := [1]
  lhsBatch := []
  rhsBatch := []
  wf := dot_S4000x22_S22x64_S4000x64_1_0_0_1_n_n_wf
def dot_S10000x81_S81x64_S10000x64_1_0_0_1_n_n : DotDims S10000x81 S81x64 S10000x64 where
  lhsContracting := [1]
  rhsContracting := [0]
  lhsNonContracting := [0]
  rhsNonContracting := [1]
  lhsBatch := []
  rhsBatch := []
  wf := dot_S10000x81_S81x64_S10000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_v6) S4000x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x81.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x22.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S78x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S22x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x81.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S81x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S100000x64 : Shape := ⟨2, ![100000, 64]⟩
abbrev S_ : Shape := ⟨0, ![]⟩
abbrev S800000x1 : Shape := ⟨2, ![800000, 1]⟩
abbrev S800000x81 : Shape := ⟨2, ![800000, 81]⟩
abbrev S800000x3 : Shape := ⟨2, ![800000, 3]⟩
abbrev S800000x78 : Shape := ⟨2, ![800000, 78]⟩
abbrev S800000x103 : Shape := ⟨2, ![800000, 103]⟩
abbrev S800000x64 : Shape := ⟨2, ![800000, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x81, .f32⟩
  | .hbm, ⟨1, _⟩ => ⟨S800000x22, .f32⟩
  | .hbm, ⟨2, _⟩ => ⟨S81x64, .f32⟩
  | .hbm, ⟨3, _⟩ => ⟨S103x64, .f32⟩
  | .hbm, ⟨4, _⟩ => ⟨S800000, .i32⟩
  | .hbm, ⟨5, _⟩ => ⟨S800000, .i32⟩
  | .hbm, ⟨6, _⟩ => ⟨S100000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x81, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x81, .f32⟩
  | .hbm, ⟨25, _⟩ => ⟨S800000x3, .f32⟩
  | .hbm, ⟨26, _⟩ => ⟨S800000x3, .f32⟩
  | .hbm, ⟨27, _⟩ => ⟨S800000x3, .f32⟩
  | .hbm, ⟨28, _⟩ => ⟨S800000x3, .f32⟩
  | .hbm, ⟨29, _⟩ => ⟨S_, .f32⟩
  | .hbm, ⟨30, _⟩ => ⟨S800000, .f32⟩
  | .hbm, ⟨31, _⟩ => ⟨S800000x1, .f32⟩
  | .hbm, ⟨32, _⟩ => ⟨S800000x3, .f32⟩
  | .hbm, ⟨33, _⟩ => ⟨S800000x78, .f32⟩
  | .hbm, ⟨34, _⟩ => ⟨S800000x78, .f32⟩
  | .hbm, ⟨35, _⟩ => ⟨S800000x78, .f32⟩
  | .hbm, ⟨36, _⟩ => ⟨S800000x81, .f32⟩
  | .hbm, ⟨37, _⟩ => ⟨S800000x81, .f32⟩
  | .hbm, ⟨38, _⟩ => ⟨S800000x81, .f32⟩
  | .hbm, ⟨39, _⟩ => ⟨S800000x103, .f32⟩
  | .hbm, ⟨40, _⟩ => ⟨S800000x64, .f32⟩
  | .hbm, ⟨41, _⟩ => ⟨S_, .f32⟩
  | .hbm, ⟨42, _⟩ => ⟨S100000x64, .f32⟩
  | .hbm, ⟨43, _⟩ => ⟨S800000x1, .i32⟩
  | .hbm, ⟨44, _⟩ => ⟨S100000x64, .f32⟩
  | .hbm, ⟨45, _⟩ => ⟨S100000x64, .f32⟩
  | _, _ => ⟨S100000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x81_S800000x3_0_0 : S800000x81.Slices ![0, 0] S800000x3
  reducesTo_S800000x3_S800000_d1 : S800000x3.ReducesTo [1] S800000
  h_S_ : 0 < S_.numel
  slices_S800000x81_S800000x78_0_3 : S800000x81.Slices ![0, 3] S800000x78
  concatenates_S800000x3_S800000x78_S800000x81_d1 : Shape.Concatenates [S800000x3, S800000x78] S800000x81 1
  bcast_S800000x1_S800000x81_0_1 : S800000x1.BroadcastsInDim S800000x81 (![0, 1] : Fin 2 → Fin S800000x81.rank)
  concatenates_S800000x81_S800000x22_S800000x103_d1 : Shape.Concatenates [S800000x81, S800000x22] S800000x103 1
  bcast_S_S100000x64 : S_.BroadcastsInDim S100000x64 (![] : Fin 0 → Fin S100000x64.rank)
  dot_S100000x81_S81x64_S100000x64_1_0_0_1_n_n_wf : DotDims.WF S100000x81 S81x64 S100000x64 [1] [0] [0] [1] [] []
  gather_S100000x81_S800000x1_S800000x81_1_0_n_n_0_1_181_wf : GatherDims.WF S100000x81 S800000x1 S800000x81 [1] [0] [] [0] [] 1 ![1, 81]
  dot_S800000x103_S103x64_S800000x64_1_0_0_1_n_n_wf : DotDims.WF S800000x103 S103x64 S800000x64 [1] [0] [0] [1] [] []
  scatter_S100000x64_S800000x1_S800000x64_1_0_0_1_wf : ScatterDims.WF S100000x64 S800000x1 S800000x64 [1] [0] [0] 1

variable [Facts₀]

def dot_S100000x81_S81x64_S100000x64_1_0_0_1_n_n : DotDims S100000x81 S81x64 S100000x64 where
  lhsContracting := [1]
  rhsContracting := [0]
  lhsNonContracting := [0]
  rhsNonContracting := [1]
  lhsBatch := []
  rhsBatch := []
  wf := dot_S100000x81_S81x64_S100000x64_1_0_0_1_n_n_wf
def gather_S100000x81_S800000x1_S800000x81_1_0_n_n_0_1_181 : GatherDims S100000x81 S800000x1 S800000x81 where
  offsetDims := [1]
  collapsedSliceDims := [0]
  operandBatchingDims := []
  startIndicesBatchingDims := []
  startIndexMap := [0]
  indexVectorDim := 1
  sliceSizes := ![1, 81]
  wf := gather_S100000x81_S800000x1_S800000x81_1_0_n_n_0_1_181_wf
def dot_S800000x103_S103x64_S800000x64_1_0_0_1_n_n : DotDims S800000x103 S103x64 S800000x64 where
  lhsContracting := [1]
  rhsContracting := [0]
  lhsNonContracting := [0]
  rhsNonContracting := [1]
  lhsBatch := []
  rhsBatch := []
  wf := dot_S800000x103_S103x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KernelRun.lean ====
/-
  The idealized kernel program's run with its result named.

  The program is four stretches: host operations (index clean-up, the two gathers, the three weight slices), the edge
  kernel's region, the node kernel's region, and host operations (the scatter-add and the final sum). The buffer
  contents at each boundary are a fold from the launch memory; every weakly fair execution ends with every buffer
  that outlives the regions at the last fold. Here that is read at the result buffer as well as at the arguments.
-/
import proofs.«120055_j54099408060448_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelRun

end
-- ==== Proof.Spec.lean ====
/-
  The mathematics of one message-passing layer, stated index by index on the extended reals.

  For an edge `e` with source row `sf e` and neighbour row `nb e` (81 features each, the first three being
  coordinates) the squared distance is `d e = ∑ k < 3, (sf e k - nb e k)²`. The edge's feature row has 103 entries:
  the neighbour's three coordinates over `d e`, then the 78 sums `sf e k + nb e k` (3 ≤ k < 81) over `d e`, then the 22
  bond features. The message of the edge is that row times the 103 × 64 weight matrix. Cutting the row into its three
  stretches cuts the product into three smaller products whose sum it is: addition of extended reals is commutative
  and associative, so this regrouping holds with no finiteness assumption (a zero distance makes the same quotient on
  both sides).

  The node transform is the plain product of the 81-feature rows with the 81 × 64 matrix.
-/
import Idealize.ShloMosaic.PureOps.Ideal
import Idealize.ShloMosaic.Lib.ValueIdx
import Mathlib.Algebra.BigOperators.Fin

noncomputable section

namespace Cert.EdgeSpec

open Idealize.ShloMosaic Idealize.ShloMosaic.ValueIdx

/-- A matrix of extended reals with `a` rows and `b` columns. -/
abbrev Mat (a b : ℕ) := (⟨2, ![a, b]⟩ : Shape).Idx → EReal

/-- Coordinate column `k < 3` among the 81 features. -/
abbrev c3 (k : Fin 3) : Fin 81 := ⟨k.val, by omega⟩
/-- Feature column `3 + k` among the 81 features. -/
abbrev c78 (k : Fin 78) : Fin 81 := ⟨3 + k.val, by omega⟩
/-- Weight row `k < 3` among the 103. -/
abbrev r3 (k : Fin 3) : Fin 103 := ⟨k.val, by omega⟩
/-- Weight row `3 + k` among the 103. -/
abbrev r78 (k : Fin 78) : Fin 103 := ⟨3 + k.val, by omega⟩
/-- Weight row `81 + k` among the 103. -/
abbrev r22 (k : Fin 22) : Fin 103 := ⟨81 + k.val, by omega⟩

/-- The squared distance between the two ends of edge `e`. -/
def dist2 {E : ℕ} (sf nb : Mat E 81) (e : Fin E) : EReal :=
  ∑ k : Fin 3, (sf (ix2 e (c3 k)) - nb (ix2 e (c3 k))) * (sf (ix2 e (c3 k)) - nb (ix2 e (c3 k)))

/-- The message of edge `e` at output channel `c`, the weight matrix given as its three row blocks. -/
def msgParts {E : ℕ} (sf nb : Mat E 81) (bond : Mat E 22) (wa : Mat 3 64) (wb : Mat 78 64) (wc : Mat 22 64)
    (e : Fin E) (c : Fin 64) : EReal :=
  (∑ k : Fin 3, Ideal.div (nb (ix2 e (c3 k))) (dist2 sf nb e) * wa (ix2 k c)
    + ∑ k : Fin 78, Ideal.div (sf (ix2 e (c78 k)) + nb (ix2 e (c78 k))) (dist2 sf nb e) * wb (ix2 k c))
  + ∑ k : Fin 22, bond (ix2 e k) * wc (ix2 k c)

/-- The message of edge `e` at output channel `c` against the whole weight matrix. -/
def msg {E : ℕ} (sf nb : Mat E 81) (bond : Mat E 22) (w : Mat 103 64) (e : Fin E) (c : Fin 64) : EReal :=
  (∑ k : Fin 3, Ideal.div (nb (ix2 e (c3 k))) (dist2 sf nb e) * w (ix2 (r3 k) c)
    + ∑ k : Fin 78, Ideal.div (sf (ix2 e (c78 k)) + nb (ix2 e (c78 k))) (dist2 sf nb e) * w (ix2 (r78 k) c))
  + ∑ k : Fin 22, bond (ix2 e k) * w (ix2 (r22 k) c)

/-- With the three blocks the rows 0–2, 3–80 and 81–102 of one matrix, the two readings agree. -/
theorem msgParts_eq_msg {E : ℕ} (sf nb : Mat E 81) (bond : Mat E 22) (w : Mat 103 64) (wa : Mat 3 64) (wb : Mat 78 64)
    (wc : Mat 22 64) (ha : ∀ k c, wa (ix2 k c) = w (ix2 (r3 k) c)) (hb : ∀ k c, wb (ix2 k c) = w (ix2 (r78 k) c))
    (hc : ∀ k c, wc (ix2 k c) = w (ix2 (r22 k) c)) (e : Fin E) (c : Fin 64) :
    msgParts sf nb bond wa wb wc e c = msg sf nb bond w e c := by
  unfold msgParts msg
  simp only [ha, hb, hc]

/-- A sum over 103 terms is the sum of its first 3, its next 78 and its last 22 terms. -/
theorem sum103_split {M : Type} [AddCommMonoid M] (g : Fin 103 → M) :
    ∑ k : Fin 103, g k = (∑ k : Fin 3, g (r3 k) + ∑ k : Fin 78, g (r78 k)) + ∑ k : Fin 22, g (r22 k) := by
  show ∑ k : Fin (3 + 78 + 22), g k = _
  rw [Fin.sum_univ_add, Fin.sum_univ_add]
  rfl

/-- The node transform: row `n` of the features times column `c` of the 81 × 64 matrix. -/
def selfT {N : ℕ} (x : Mat N 81) (ws : Mat 81 64) (n : Fin N) (c : Fin 64) : EReal :=
  ∑ k : Fin 81, x (ix2 n k) * ws (ix2 k c)

/-- The message of an edge depends only on that edge's own rows: two layouts that agree on the rows of `e` and `e'`
    give the same message there (a block of edges read inside the whole edge list). -/
theorem msgParts_rows {E E' : ℕ} (sf nb : Mat E 81) (bond : Mat E 22) (sf' nb' : Mat E' 81) (bond' : Mat E' 22)
    (wa wa' : Mat 3 64) (wb wb' : Mat 78 64) (wc wc' : Mat 22 64) (e : Fin E) (e' : Fin E')
    (hs : ∀ k, sf (ix2 e k) = sf' (ix2 e' k)) (hn : ∀ k, nb (ix2 e k) = nb' (ix2 e' k))
    (hb : ∀ k, bond (ix2 e k) = bond' (ix2 e' k)) (ha : ∀ k c, wa (ix2 k c) = wa' (ix2 k c))
    (hwb : ∀ k c, wb (ix2 k c) = wb' (ix2 k c)) (hwc : ∀ k c, wc (ix2 k c) = wc' (ix2 k c)) (c : Fin 64) :
    msgParts sf nb bond wa wb wc e c = msgParts sf' nb' bond' wa' wb' wc' e' c := by
  unfold msgParts dist2
  simp only [hs, hn, hb, ha, hwb, hwc]

/-- The node transform of a node depends only on that node's own row. -/
theorem selfT_rows {N N' : ℕ} (x : Mat N 81) (x' : Mat N' 81) (ws ws' : Mat 81 64) (n : Fin N) (n' : Fin N')
    (hx : ∀ k, x (ix2 n k) = x' (ix2 n' k)) (hw : ∀ k c, ws (ix2 k c) = ws' (ix2 k c)) (c : Fin 64) :
    selfT x ws n c = selfT x' ws' n' c := by
  unfold selfT
  simp only [hx, hw]

end Cert.EdgeSpec

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibPlainDot.lean ====
/-
  A plain matrix product read at an entry.

  For dimension numbers that contract the left operand's second axis with the right operand's first and keep the
  other two axes in order, the product of an `M × K` and a `K × N` matrix at the ideal values, read at `(r, c)`, is
  `∑ k, L (r, k) * R (k, c)`: both for a product accumulated into a zero array and for the host's product.
-/
import Idealize.ShloMosaic.PureOps.Ideal.Laws
import Idealize.ShloMosaic.Lib.ValueIdx

namespace Cert.LibPlainDot

open Idealize.ShloMosaic Idealize.ShloMosaic.ValueIdx

variable {M K N : ℕ} {φ₁ φ₂ : FTy}

/-- The operand indices of a plain product at output `(r, c)` and the `k`-th contraction index are `(r, k)` and `(k, c)`. -/
theorem plain_idx (d : DotDims ⟨2, ![M, K]⟩ ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  have hk := contrEquiv1_symm_val d K hr hs k
  refine ⟨funext fun a => Fin.ext ?_, funext fun a => Fin.ext ?_⟩
  · match a with
    | ⟨0, _⟩ => exact hl0 _ _
    | ⟨1, _⟩ => exact (d.lhsIdx_val_of_single hlc _ _).trans hk
  · match a with
    | ⟨0, _⟩ => exact (d.rhsIdx_val_of_single hrc _ _).trans hk
    | ⟨1, _⟩ => exact hr1 _ _

/-- A plain product accumulated into the zero array, at `(r, c)`. -/
theorem matmul_zero_at (d : DotDims ⟨2, ![M, K]⟩ ⟨2, ![K, N]⟩ ⟨2, ![M, N]⟩) (prec : Option ContractPrecision)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (L : FVec Ideal ⟨2, ![M, K]⟩ φ₁) (R : FVec Ideal ⟨2, ![K, N]⟩ φ₂) (r : Fin M) (c : Fin N) :
    FloatOps.matmul d prec L R (constant (F := Ideal) ⟨2, ![M, N]⟩ .f32 0x00000000#32) (ix2 r c)
      = ∑ k : Fin K, L (ix2 r k) * R (ix2 k c) := by
  rw [Ideal.matmul_constant_zero_apply, ← Equiv.sum_comp (contrEquiv1 d K hr hs).symm]
  refine Finset.sum_congr rfl fun k _ => ?_
  obtain ⟨el, er⟩ := plain_idx d hr hs hlc hrc hl0 hr1 r c k
  rw [el, er]

/-- The host's plain product, at `(r, c)`. -/
theorem dotGeneral_at (d : DotDims ⟨2, ![M, K]⟩ ⟨2, ![K, N]⟩ ⟨2, ![M, N]⟩) (prec : Option ContractPrecision) (sched : HostSchedule)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (L : FVec Ideal ⟨2, ![M, K]⟩ φ₁) (R : FVec Ideal ⟨2, ![K, N]⟩ φ₂) (r : Fin M) (c : Fin N) :
    FloatOps.dotGeneral d prec sched L R (ix2 r c) = ∑ k : Fin K, L (ix2 r k) * R (ix2 k c) := by
  rw [Ideal.dotGeneral_apply, ← Equiv.sum_comp (contrEquiv1 d K hr hs).symm]
  refine Finset.sum_congr rfl fun k _ => ?_
  obtain ⟨el, er⟩ := plain_idx d hr hs hlc hrc hl0 hr1 r c k
  rw [el, er]

end Cert.LibPlainDot
-- ==== Proof.KernelPay.lean ====
/-
  What one grid step of each of the two kernels stores, read at a row and a column of its block.

  The edge kernel's block of 4000 edges holds, at (r, c), the message of the specification for the block's own rows:
  the squared distance is the lane sum of the three squared coordinate differences, kept as a column and spread over
  the 3 and the 78 columns it divides, and the three matrix products into zero accumulators are plain sums. The
  format changes on the way to the matrix unit are the identity on extended reals. The node kernel's block of 10000
  nodes holds the plain product of its rows with the weight matrix.
-/
import proofs.«120055_j54099408060448_1_alg».proof.Proof.Gen.KernelIdeal.Skeleton
import proofs.«120055_j54099408060448_1_alg».proof.Proof.Spec
import proofs.«120055_j54099408060448_1_alg».proof.Proof.LibColumn
import proofs.«120055_j54099408060448_1_alg».proof.Proof.LibPlainDot
import Idealize.ShloMosaic.PureOps.Ideal.Laws
import Idealize.ShloMosaic.Lib.Pipeline.Value
import Idealize.ShloMosaic.Lib.ValueIdx

noncomputable section

namespace Cert.KernelPay

open Cert.KernelIdeal Cert.KernelIdeal.Gen Idealize.ShloMosaic Idealize.ShloMosaic.ValueIdx Cert.EdgeSpec

theorem mm3_l0 (j : S4000x64.Idx) (q : dot_S4000x3_S3x64_S4000x64_1_0_0_1_n_n.contr.Idx) : (dot_S4000x3_S3x64_S4000x64_1_0_0_1_n_n.lhsIdx j q (0 : Fin 2)).val = (j (0 : Fin 2)).val := by
  unfold DotDims.lhsIdx
  rw [dif_neg (show ¬(0 : Fin S4000x3.rank) ∈ dot_S4000x3_S3x64_S4000x64_1_0_0_1_n_n.lhsBatch by decide), dif_pos (show (0 : Fin S4000x3.rank) ∈ dot_S4000x3_S3x64_S4000x64_1_0_0_1_n_n.lhsNonContracting by decide)]
  rfl
theorem mm3_r1 (j : S4000x64.Idx) (q : dot_S4000x3_S3x64_S4000x64_1_0_0_1_n_n.contr.Idx) : (dot_S4000x3_S3x64_S4000x64_1_0_0_1_n_n.rhsIdx j q (1 : Fin 2)).val = (j (1 : Fin 2)).val := by
  unfold DotDims.rhsIdx
  rw [dif_neg (show ¬(1 : Fin S3x64.rank) ∈ dot_S4000x3_S3x64_S4000x64_1_0_0_1_n_n.rhsBatch by decide), dif_pos (show (1 : Fin S3x64.rank) ∈ dot_S4000x3_S3x64_S4000x64_1_0_0_1_n_n.rhsNonContracting by decide)]
  rfl
/-- The 3-term product into a zero accumulator, at row `r` and column `c`. -/
theorem mm3_at {φ₁ φ₂ : FTy} (L : FVec Ideal S4000x3 φ₁) (R : FVec Ideal S3x64 φ₂) (r : Fin 4000) (c : Fin 64) :
    matmul dot_S4000x3_S3x64_S4000x64_1_0_0_1_n_n none L R (constant (F := Ideal) S4000x64 .f32 0x00000000#32) (ix2 r c) = ∑ k : Fin 3, L (ix2 r k) * R (ix2 k c) :=
  Cert.LibPlainDot.matmul_zero_at dot_S4000x3_S3x64_S4000x64_1_0_0_1_n_n none rfl rfl rfl rfl mm3_l0 mm3_r1 L R r c

theorem mm78_l0 (j : S4000x64.Idx) (q : dot_S4000x78_S78x64_S4000x64_1_0_0_1_n_n.contr.Idx) : (dot_S4000x78_S78x64_S4000x64_1_0_0_1_n_n.lhsIdx j q (0 : Fin 2)).val = (j (0 : Fin 2)).val := by
  unfold DotDims.lhsIdx
  rw [dif_neg (show ¬(0 : Fin S4000x78.rank) ∈ dot_S4000x78_S78x64_S4000x64_1_0_0_1_n_n.lhsBatch by decide), dif_pos (show (0 : Fin S4000x78.rank) ∈ dot_S4000x78_S78x64_S4000x64_1_0_0_1_n_n.lhsNonContracting by decide)]
  rfl
theorem mm78_r1 (j : S4000x64.Idx) (q : dot_S4000x78_S78x64_S4000x64_1_0_0_1_n_n.contr.Idx) : (dot_S4000x78_S78x64_S4000x64_1_0_0_1_n_n.rhsIdx j q (1 : Fin 2)).val = (j (1 : Fin 2)).val := by
  unfold DotDims.rhsIdx
  rw [dif_neg (show ¬(1 : Fin S78x64.rank) ∈ dot_S4000x78_S78x64_S4000x64_1_0_0_1_n_n.rhsBatch by decide), dif_pos (show (1 : Fin S78x64.rank) ∈ dot_S4000x78_S78x64_S4000x64_1_0_0_1_n_n.rhsNonContracting by decide)]
  rfl
/-- The 78-term product into a zero accumulator, at row `r` and column `c`. -/
theorem mm78_at {φ₁ φ₂ : FTy} (L : FVec Ideal S4000x78 φ₁) (R : FVec Ideal S78x64 φ₂) (r : Fin 4000) (c : Fin 64) :
    matmul dot_S4000x78_S78x64_S4000x64_1_0_0_1_n_n none L R (constant (F := Ideal) S4000x64 .f32 0x00000000#32) (ix2 r c) = ∑ k : Fin 78, L (ix2 r k) * R (ix2 k c) :=
  Cert.LibPlainDot.matmul_zero_at dot_S4000x78_S78x64_S4000x64_1_0_0_1_n_n none rfl rfl rfl rfl mm78_l0 mm78_r1 L R r c

theorem mm22_l0 (j : S4000x64.Idx) (q : dot_S4000x22_S22x64_S4000x64_1_0_0_1_n_n.contr.Idx) : (dot_S4000x22_S22x64_S4000x64_1_0_0_1_n_n.lhsIdx j q (0 : Fin 2)).val = (j (0 : Fin 2)).val := by
  unfold DotDims.lhsIdx
  rw [dif_neg (show ¬(0 : Fin S4000x22.rank) ∈ dot_S4000x22_S22x64_S4000x64_1_0_0_1_n_n.lhsBatch by decide), dif_pos (show (0 : Fin S4000x22.rank) ∈ dot_S4000x22_S22x64_S4000x64_1_0_0_1_n_n.lhsNonContracting by decide)]
  rfl
theorem mm22_r1 (j : S4000x64.Idx) (q : dot_S4000x22_S22x64_S4000x64_1_0_0_1_n_n.contr.Idx) : (dot_S4000x22_S22x64_S4000x64_1_0_0_1_n_n.rhsIdx j q (1 : Fin 2)).val = (j (1 : Fin 2)).val := by
  unfold DotDims.rhsIdx
  rw [dif_neg (show ¬(1 : Fin S22x64.rank) ∈ dot_S4000x22_S22x64_S4000x64_1_0_0_1_n_n.rhsBatch by decide), dif_pos (show (1 : Fin S22x64.rank) ∈ dot_S4000x22_S22x64_S4000x64_1_0_0_1_n_n.rhsNonContracting by decide)]
  rfl
/-- The 22-term product into a zero accumulator, at row `r` and column `c`. -/
theorem mm22_at {φ₁ φ₂ : FTy} (L : FVec Ideal S4000x22 φ₁) (R : FVec Ideal S22x64 φ₂) (r : Fin 4000) (c : Fin 64) :
    matmul dot_S4000x22_S22x64_S4000x64_1_0_0_1_n_n none L R (constant (F := Ideal) S4000x64 .f32 0x00000000#32) (ix2 r c) = ∑ k : Fin 22, L (ix2 r k) * R (ix2 k c) :=
  Cert.LibPlainDot.matmul_zero_at dot_S4000x22_S22x64_S4000x64_1_0_0_1_n_n none rfl rfl rfl rfl mm22_l0 mm22_r1 L R r c

theorem mm81_l0 (j : S10000x64.Idx) (q : dot_S10000x81_S81x64_S10000x64_1_0_0_1_n_n.contr.Idx) : (dot_S10000x81_S81x64_S10000x64_1_0_0_1_n_n.lhsIdx j q (0 : Fin 2)).val = (j (0 : Fin 2)).val := by
  unfold DotDims.lhsIdx
  rw [dif_neg (show ¬(0 : Fin S10000x81.rank) ∈ dot_S10000x81_S81x64_S10000x64_1_0_0_1_n_n.lhsBatch by decide), dif_pos (show (0 : Fin S10000x81.rank) ∈ dot_S10000x81_S81x64_S10000x64_1_0_0_1_n_n.lhsNonContracting by decide)]
  rfl
theorem mm81_r1 (j : S10000x64.Idx) (q : dot_S10000x81_S81x64_S10000x64_1_0_0_1_n_n.contr.Idx) : (dot_S10000x81_S81x64_S10000x64_1_0_0_1_n_n.rhsIdx j q (1 : Fin 2)).val = (j (1 : Fin 2)).val := by
  unfold DotDims.rhsIdx
  rw [dif_neg (show ¬(1 : Fin S81x64.rank) ∈ dot_S10000x81_S81x64_S10000x64_1_0_0_1_n_n.rhsBatch by decide), dif_pos (show (1 : Fin S81x64.rank) ∈ dot_S10000x81_S81x64_S10000x64_1_0_0_1_n_n.rhsNonContracting by decide)]
  rfl
/-- The 81-term product into a zero accumulator, at row `r` and column `c`. -/
theorem mm81_at {φ₁ φ₂ : FTy} (L : FVec Ideal S10000x81 φ₁) (R : FVec Ideal S81x64 φ₂) (r : Fin 10000) (c : Fin 64) :
    matmul dot_S10000x81_S81x64_S10000x64_1_0_0_1_n_n none L R (constant (F := Ideal) S10000x64 .f32 0x00000000#32) (ix2 r c) = ∑ k : Fin 81, L (ix2 r k) * R (ix2 k c) :=
  Cert.LibPlainDot.matmul_zero_at dot_S10000x81_S81x64_S10000x64_1_0_0_1_n_n none rfl rfl rfl rfl mm81_l0 mm81_r1 L R r c

/-- The first three columns of a block of rows. -/
theorem slice3_at (x : FVec Ideal S4000x81 .f32) (r : Fin 4000) (k : Fin 3) :
    extractStridedSlice S4000x3 ![0, 0] x slices_S4000x81_o0_0_S4000x3 (ix2 r k) = x (ix2 r (c3 k)) :=
  extractStridedSlice_apply ![0, 0] x slices_S4000x81_o0_0_S4000x3 (ix2 r k) (ix2 r (c3 k)) (fun a => match a with
    | ⟨0, _⟩ => by show r.val = 0 + r.val; omega
    | ⟨1, _⟩ => by show k.val = 0 + k.val; omega)

/-- The last 78 columns of a block of rows. -/
theorem slice78_at (x : FVec Ideal S4000x81 .f32) (r : Fin 4000) (k : Fin 78) :
    extractStridedSlice S4000x78 ![0, 3] x slices_S4000x81_o0_3_S4000x78 (ix2 r k) = x (ix2 r (c78 k)) :=
  extractStridedSlice_apply ![0, 3] x slices_S4000x81_o0_3_S4000x78 (ix2 r k) (ix2 r (c78 k)) (fun a => match a with
    | ⟨0, _⟩ => by show r.val = 0 + r.val; omega
    | ⟨1, _⟩ => by show 3 + k.val = 3 + k.val; omega)

/-- The lane sum of the squared coordinate differences of row `r` is the squared distance of that row. -/
theorem sqsum_at (x0 x1 : FVec Ideal S4000x81 .f32) (r : Fin 4000) :
    multiReduction .add [1] S4000
        (mulf (subf (extractStridedSlice S4000x3 ![0, 0] x0 slices_S4000x81_o0_0_S4000x3) (extractStridedSlice S4000x3 ![0, 0] x1 slices_S4000x81_o0_0_S4000x3))
          (subf (extractStridedSlice S4000x3 ![0, 0] x0 slices_S4000x81_o0_0_S4000x3) (extractStridedSlice S4000x3 ![0, 0] x1 slices_S4000x81_o0_0_S4000x3)))
        0x00000000#32 reduces_S4000x3_S4000 (.inl rfl) rfl (ix1 r)
      = dist2 x0 x1 r := by
  refine (Ideal.multiReduction_add_single _ 0x00000000#32 reduces_S4000x3_S4000 (.inl rfl) rfl (ix1 r)).trans ?_
  unfold dist2
  refine Finset.sum_congr rfl fun (k : Fin 3) _ => ?_
  have e : reduces_S4000x3_S4000.lift (ix1 r) k = ix2 r k :=
    funext fun a => Fin.ext (by match a with | ⟨0, _⟩ => rfl | ⟨1, _⟩ => rfl)
  rw [e, mulf_apply, subf_apply, slice3_at, slice3_at]

/-- A per-row value kept as a column and spread over `b` columns reads, at (r, k), the value of row `r`. -/
theorem spread3_at (d : FVec Ideal S4000 .f32) (r : Fin 4000) (k : Fin 3) :
    broadcastTo S4000x3 (shapeCast S4000x1 d shapeCasts_S4000_S4000x1) broadcasts_S4000x1_S4000x3 (ix2 r k) = d (ix1 r) :=
  (Cert.LibColumn.broadcastTo_a1_ab_apply (a := 4000) (b := 3) _ broadcasts_S4000x1_S4000x3 r k).trans
    (Cert.LibColumn.shapeCast_a_a1_apply (a := 4000) d shapeCasts_S4000_S4000x1 r 0)
theorem spread78_at (d : FVec Ideal S4000 .f32) (r : Fin 4000) (k : Fin 78) :
    broadcastTo S4000x78 (shapeCast S4000x1 d shapeCasts_S4000_S4000x1) broadcasts_S4000x1_S4000x78 (ix2 r k) = d (ix1 r) :=
  (Cert.LibColumn.broadcastTo_a1_ab_apply (a := 4000) (b := 78) _ broadcasts_S4000x1_S4000x78 r k).trans
    (Cert.LibColumn.shapeCast_a_a1_apply (a := 4000) d shapeCasts_S4000_S4000x1 r 0)

/-- THE EDGE KERNEL'S BLOCK at (r, c): the message of the block's row `r` at channel `c`, the weights as loaded. -/
theorem edge_block_at (x0 x1 : FVec Ideal S4000x81 .f32) (x2 : FVec Ideal S4000x22 .f32) (x3 : FVec Ideal S3x64 .f32)
    (x4 : FVec Ideal S78x64 .f32) (x5 : FVec Ideal S22x64 .f32) (r : Fin 4000) (c : Fin 64) :
    k0_pay1 (F := Ideal) x0 x1 x2 x3 x4 x5 (ix2 r c) = msgParts x0 x1 x2 x3 x4 x5 r c := by
  unfold k0_pay1
  simp only [shapeCast_self]
  rw [addf_apply, addf_apply, mm3_at, mm78_at, mm22_at]
  unfold msgParts
  refine congrArg₂ (· + ·) (congrArg₂ (· + ·) ?_ ?_) ?_
  · refine Finset.sum_congr rfl fun k _ => ?_
    rw [truncf_apply, truncf_apply, divf_apply, slice3_at, spread3_at, sqsum_at]
  · refine Finset.sum_congr rfl fun k _ => ?_
    rw [truncf_apply, truncf_apply, divf_apply, addf_apply, slice78_at, slice78_at, spread78_at, sqsum_at]
  · refine Finset.sum_congr rfl fun k _ => ?_
    rw [truncf_apply, truncf_apply]

/-- THE NODE KERNEL'S BLOCK at (r, c): row `r` of the block times column `c` of the weights. -/
theorem node_block_at (x0 : FVec Ideal S10000x81 .f32) (x1 : FVec Ideal S81x64 .f32) (r : Fin 10000) (c : Fin 64) :
    k1_pay1 (F := Ideal) x0 x1 (ix2 r c) = selfT x0 x1 r c := by
  unfold k1_pay1
  rw [mm81_at]
  unfold selfT
  refine Finset.sum_congr rfl fun k _ => ?_
  rw [truncf_apply, truncf_apply]

end Cert.KernelPay

end
-- ==== Proof.EdgeRegion.lean ====
/-
  The edge kernel's output array after its 200 grid steps, for any contents of the arrays its windows read.

  Step `t` reads rows `4000 t … 4000 t + 3999` of the two gathered feature arrays and of the bond array, and the three
  weight blocks whole; it writes rows `4000 t … 4000 t + 3999` of the message array. A message depends only on its own
  edge's rows, so what step `t` writes back is block `t` of one whole-array function, and the 200 blocks cover the
  array: row `e` lies in block `e / 4000`.
-/
import proofs.«120055_j54099408060448_1_alg».proof.Proof.Gen.KernelIdeal.Frame
import proofs.«120055_j54099408060448_1_alg».proof.Proof.KernelPay
import Idealize.ShloMosaic.Lib.Pipeline.Value

set_option maxRecDepth 16384

noncomputable section

namespace Cert.EdgeRegion

open Cert.KernelIdeal Cert.KernelIdeal.Gen Idealize.ShloMosaic Idealize.ShloMosaic.TcCoe Idealize.ShloMosaic.ValueIdx Cert.EdgeSpec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole message array as one function of the arrays the edge kernel's windows read. -/
def edgeArr (c : Dev nD) : S800000x64.Idx → EReal := fun i =>
  msgParts (V c main_v6 : S800000x81.Idx → EReal) (V c main_v13 : S800000x81.Idx → EReal) (V c main_arg1 : S800000x22.Idx → EReal)
    (V c main_v14 : S3x64.Idx → EReal) (V c main_v15 : S78x64.Idx → EReal) (V c main_v16 : S22x64.Idx → EReal) (i 0) (i 1)

/-- The block index maps over the grid: the three edge-blocked inputs and the output move with the step, the weight
    blocks stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of block `t` is edge `4000 t + r`. -/
def erow (t : Fin cfg0.N) (r : Fin 4000) : Fin 800000 :=
  ⟨t.val * 4000 + r.val, by have := t.isLt; have hN : cfg0.N = 200 := N_0; omega⟩

/-- Window 0's block at step `t` is rows `4000 t … 4000 t + 3999` of its array. -/
theorem blk0_at (c : Dev nD) (t : Fin cfg0.N) (r : Fin 4000) (k : Fin 81) :
    (iblk0 V c 0 t : Vec Ideal S4000x81 .f32) (ix2 r k) = (V c main_v6 : S800000x81.Idx → EReal) (ix2 (erow t r) k) := by
  obtain ⟨e0, e1, e2, e3, e4, e5, e6, e7, e8, e9, e10, e11, e12, e13⟩ := idx_facts t
  unfold iblk0
  rw [View.read_apply]
  show V c main_v6 _ = V c main_v6 _
  congr 1
  funext a
  apply Fin.ext
  match a with
  | ⟨0, _⟩ => show win0_0.index t (0 : Fin 2) * 4000 + 1 * r.val = t.val * 4000 + r.val; omega
  | ⟨1, _⟩ => show win0_0.index t (1 : Fin 2) * 81 + 1 * k.val = k.val; omega

/-- Window 1's block at step `t` is rows `4000 t … 4000 t + 3999` of its array. -/
theorem blk1_at (c : Dev nD) (t : Fin cfg0.N) (r : Fin 4000) (k : Fin 81) :
    (iblk0 V c 1 t : Vec Ideal S4000x81 .f32) (ix2 r k) = (V c main_v13 : S800000x81.Idx → EReal) (ix2 (erow t r) k) := by
  obtain ⟨e0, e1, e2, e3, e4, e5, e6, e7, e8, e9, e10, e11, e12, e13⟩ := idx_facts t
  unfold iblk0
  rw [View.read_apply]
  show V c main_v13 _ = V c main_v13 _
  congr 1
  funext a
  apply Fin.ext
  match a with
  | ⟨0, _⟩ => show win0_1.index t (0 : Fin 2) * 4000 + 1 * r.val = t.val * 4000 + r.val; omega
  | ⟨1, _⟩ => show win0_1.index t (1 : Fin 2) * 81 + 1 * k.val = k.val; omega

/-- Window 2's block at step `t` is rows `4000 t … 4000 t + 3999` of its array. -/
theorem blk2_at (c : Dev nD) (t : Fin cfg0.N) (r : Fin 4000) (k : Fin 22) :
    (iblk0 V c 2 t : Vec Ideal S4000x22 .f32) (ix2 r k) = (V c main_arg1 : S800000x22.Idx → EReal) (ix2 (erow t r) k) := by
  obtain ⟨e0, e1, e2, e3, e4, e5, e6, e7, e8, e9, e10, e11, e12, e13⟩ := idx_facts t
  unfold iblk0
  rw [View.read_apply]
  show V c main_arg1 _ = V c main_arg1 _
  congr 1
  funext a
  apply Fin.ext
  match a with
  | ⟨0, _⟩ => show win0_2.index t (0 : Fin 2) * 4000 + 1 * r.val = t.val * 4000 + r.val; omega
  | ⟨1, _⟩ => show win0_2.index t (1 : Fin 2) * 22 + 1 * k.val = k.val; omega

/-- Window 3's block is its whole array at every step. -/
theorem blk3_at (c : Dev nD) (t : Fin cfg0.N) (k : Fin 3) (cc : Fin 64) :
    (iblk0 V c 3 t : Vec Ideal S3x64 .f32) (ix2 k cc) = (V c main_v14 : S3x64.Idx → EReal) (ix2 k cc) := by
  obtain ⟨e0, e1, e2, e3, e4, e5, e6, e7, e8, e9, e10, e11, e12, e13⟩ := idx_facts t
  unfold iblk0
  rw [View.read_apply]
  show V c main_v14 _ = V c main_v14 _
  congr 1
  funext a
  apply Fin.ext
  match a with
  | ⟨0, _⟩ => show win0_3.index t (0 : Fin 2) * 3 + 1 * k.val = k.val; omega
  | ⟨1, _⟩ => show win0_3.index t (1 : Fin 2) * 64 + 1 * cc.val = cc.val; omega

/-- Window 4's block is its whole array at every step. -/
theorem blk4_at (c : Dev nD) (t : Fin cfg0.N) (k : Fin 78) (cc : Fin 64) :
    (iblk0 V c 4 t : Vec Ideal S78x64 .f32) (ix2 k cc) = (V c main_v15 : S78x64.Idx → EReal) (ix2 k cc) := by
  obtain ⟨e0, e1, e2, e3, e4, e5, e6, e7, e8, e9, e10, e11, e12, e13⟩ := idx_facts t
  unfold iblk0
  rw [View.read_apply]
  show V c main_v15 _ = V c main_v15 _
  congr 1
  funext a
  apply Fin.ext
  match a with
  | ⟨0, _⟩ => show win0_4.index t (0 : Fin 2) * 78 + 1 * k.val = k.val; omega
  | ⟨1, _⟩ => show win0_4.index t (1 : Fin 2) * 64 + 1 * cc.val = cc.val; omega

/-- Window 5's block is its whole array at every step. -/
theorem blk5_at (c : Dev nD) (t : Fin cfg0.N) (k : Fin 22) (cc : Fin 64) :
    (iblk0 V c 5 t : Vec Ideal S22x64 .f32) (ix2 k cc) = (V c main_v16 : S22x64.Idx → EReal) (ix2 k cc) := by
  obtain ⟨e0, e1, e2, e3, e4, e5, e6, e7, e8, e9, e10, e11, e12, e13⟩ := idx_facts t
  unfold iblk0
  rw [View.read_apply]
  show V c main_v16 _ = V c main_v16 _
  congr 1
  funext a
  apply Fin.ext
  match a with
  | ⟨0, _⟩ => show win0_5.index t (0 : Fin 2) * 22 + 1 * k.val = k.val; omega
  | ⟨1, _⟩ => show win0_5.index t (1 : Fin 2) * 64 + 1 * cc.val = cc.val; omega

/-- What step `t` writes back is block `t` of the whole message array. -/
theorem flushed6_eq (c : Dev nD) (t : Fin cfg0.N) :
    (dat0 V c).flushed 6 t = ((cfg0.win 6).blk t).view.read (Elt Ideal) (edgeArr V c) := by
  show (cfg0.win 6).cut (grid0.coords t) ((dat0 V c).after 6 t) = _
  rw [after0_6]
  unfold out0_6
  rw [View.canon_unit_zero hz]
  simp only [View.ld_unit_zero (S := S4000x81) hz, View.ld_unit_zero (S := S4000x22) hz, View.ld_unit_zero (S := S3x64) hz,
    View.ld_unit_zero (S := S78x64) hz, View.ld_unit_zero (S := S22x64) hz]
  have key : ∀ j' : S4000x64.Idx,
      k0_pay1 (F := Ideal) (iblk0 V c 0 t) (iblk0 V c 1 t) (iblk0 V c 2 t) (iblk0 V c 3 t) (iblk0 V c 4 t) (iblk0 V c 5 t) j'
        = edgeArr V c (((cfg0.win 6).blk t).view.emb j') := by
    intro j'
    obtain ⟨r, cc, rfl⟩ : ∃ (r : Fin 4000) (cc : Fin 64), j' = ix2 r cc := ⟨j' 0, j' 1, eq_ix2 j'⟩
    obtain ⟨e0, e1, e2, e3, e4, e5, e6, e7, e8, e9, e10, e11, e12, e13⟩ := idx_facts t
    have h0 : (((cfg0.win 6).blk t).view.emb (ix2 r cc)) 0 = erow t r :=
      Fin.ext (show win0_6.index t (0 : Fin 2) * 4000 + 1 * r.val = t.val * 4000 + r.val by omega)
    have h1 : (((cfg0.win 6).blk t).view.emb (ix2 r cc)) 1 = cc :=
      Fin.ext (show win0_6.index t (1 : Fin 2) * 64 + 1 * cc.val = cc.val by omega)
    refine (Cert.KernelPay.edge_block_at (iblk0 V c 0 t) (iblk0 V c 1 t) (iblk0 V c 2 t) (iblk0 V c 3 t) (iblk0 V c 4 t) (iblk0 V c 5 t) r cc).trans ?_
    unfold edgeArr
    rw [h0, h1]
    exact msgParts_rows _ _ _ _ _ _ _ _ _ _ _ _ r (erow t r) (blk0_at V c t r) (blk1_at V c t r) (blk2_at V c t r)
      (blk3_at V c t) (blk4_at V c t) (blk5_at V c t) cc
  funext j
  exact key j

/-- An index of the message array is in step `t`'s block iff each coordinate is in the block's range on its axis. -/
theorem mem_blk6 (t : Fin cfg0.N) (i : S800000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v17).slice (win0_6.rect t)).set ↔ _
  rw [View.set_slice_whole, Rect.mem_set_unit]
  exact Iff.rfl

/-- Every row of the message array is in some step's block. -/
theorem cover6 (i : S800000x64.Idx) : ∃ t : Fin cfg0.N, (cfg0.win 6).flush t = true ∧ i ∈ ((cfg0.win 6).blk t).view.set := by
  have hN : cfg0.N = 200 := N_0
  have hi0 : (i 0).val < 800000 := (i 0).isLt
  have hi1 : (i 1).val < 64 := (i 1).isLt
  let t : Fin cfg0.N := ⟨(i 0).val / 4000, by omega⟩
  obtain ⟨e0, e1, e2, e3, e4, e5, e6, e7, e8, e9, e10, e11, e12, e13⟩ := idx_facts t
  have ht : t.val = (i 0).val / 4000 := rfl
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- THE MESSAGE ARRAY after the edge kernel's run, for any contents `V` of the arrays at the region's entry. -/
theorem edge_final (c : Dev nD) : (dat0 V c).arrAt 6 cfg0.N = edgeArr V c :=
  (dat0 V c).arrAt_eq_of_cover 6 (edgeArr V c) (fun t _ => flushed6_eq V c t) (cover6)

end Cert.EdgeRegion

end
-- ==== Proof.NodeRegion.lean ====
/-
  The node kernel's output array after its 10 grid steps, for any contents of the arrays its windows read.

  Step `t` reads rows `10000 t … 10000 t + 9999` of the feature array and the weight matrix whole, and writes the same
  rows of the output: block `t` of the plain product of the two arrays. The 10 blocks cover the array.
-/
import proofs.«120055_j54099408060448_1_alg».proof.Proof.Gen.KernelIdeal.Frame
import proofs.«120055_j54099408060448_1_alg».proof.Proof.KernelPay
import Idealize.ShloMosaic.Lib.Pipeline.Value

set_option maxRecDepth 16384

noncomputable section

namespace Cert.NodeRegion

open Cert.KernelIdeal Cert.KernelIdeal.Gen Idealize.ShloMosaic Idealize.ShloMosaic.TcCoe Idealize.ShloMosaic.ValueIdx Cert.EdgeSpec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole node-transform array as one function of the two arrays the node kernel's windows read. -/
def nodeArr (c : Dev nD) : S100000x64.Idx → EReal := fun i =>
  selfT (V c main_arg0 : S100000x81.Idx → EReal) (V c main_arg2 : S81x64.Idx → EReal) (i 0) (i 1)

/-- The block index maps over the grid: the features and the output move with the step, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of block `t` is node `10000 t + r`. -/
def nrow (t : Fin cfg1.N) (r : Fin 10000) : Fin 100000 :=
  ⟨t.val * 10000 + r.val, by have := t.isLt; have hN : cfg1.N = 10 := N_1; omega⟩

/-- The feature window's block at step `t` is rows `10000 t … 10000 t + 9999` of the feature array. -/
theorem blk0_at (c : Dev nD) (t : Fin cfg1.N) (r : Fin 10000) (k : Fin 81) :
    (iblk1 V c 0 t : Vec Ideal S10000x81 .f32) (ix2 r k) = (V c main_arg0 : S100000x81.Idx → EReal) (ix2 (nrow t r) k) := by
  obtain ⟨e0, e1, e2, e3, e4, e5⟩ := idx_facts t
  unfold iblk1
  rw [View.read_apply]
  show V c main_arg0 _ = V c main_arg0 _
  congr 1
  funext a
  apply Fin.ext
  match a with
  | ⟨0, _⟩ => show win1_0.index t (0 : Fin 2) * 10000 + 1 * r.val = t.val * 10000 + r.val; omega
  | ⟨1, _⟩ => show win1_0.index t (1 : Fin 2) * 81 + 1 * k.val = k.val; omega

/-- The weight window's block is the whole weight matrix at every step. -/
theorem blk1_at (c : Dev nD) (t : Fin cfg1.N) (k : Fin 81) (cc : Fin 64) :
    (iblk1 V c 1 t : Vec Ideal S81x64 .f32) (ix2 k cc) = (V c main_arg2 : S81x64.Idx → EReal) (ix2 k cc) := by
  obtain ⟨e0, e1, e2, e3, e4, e5⟩ := idx_facts t
  unfold iblk1
  rw [View.read_apply]
  show V c main_arg2 _ = V c main_arg2 _
  congr 1
  funext a
  apply Fin.ext
  match a with
  | ⟨0, _⟩ => show win1_1.index t (0 : Fin 2) * 81 + 1 * k.val = k.val; omega
  | ⟨1, _⟩ => show win1_1.index t (1 : Fin 2) * 64 + 1 * cc.val = cc.val; omega

/-- What step `t` writes back is block `t` of the whole node-transform array. -/
theorem flushed2_eq (c : Dev nD) (t : Fin cfg1.N) :
    (dat1 V c).flushed 2 t = ((cfg1.win 2).blk t).view.read (Elt Ideal) (nodeArr V c) := by
  show (cfg1.win 2).cut (grid1.coords t) ((dat1 V c).after 2 t) = _
  rw [after1_2]
  unfold out1_2
  rw [View.canon_unit_zero hz]
  simp only [View.ld_unit_zero (S := S10000x81) hz, View.ld_unit_zero (S := S81x64) hz]
  have key : ∀ j' : S10000x64.Idx,
      k1_pay1 (F := Ideal) (iblk1 V c 0 t) (iblk1 V c 1 t) j' = nodeArr V c (((cfg1.win 2).blk t).view.emb j') := by
    intro j'
    obtain ⟨r, cc, rfl⟩ : ∃ (r : Fin 10000) (cc : Fin 64), j' = ix2 r cc := ⟨j' 0, j' 1, eq_ix2 j'⟩
    obtain ⟨e0, e1, e2, e3, e4, e5⟩ := idx_facts t
    have h0 : (((cfg1.win 2).blk t).view.emb (ix2 r cc)) 0 = nrow t r :=
      Fin.ext (show win1_2.index t (0 : Fin 2) * 10000 + 1 * r.val = t.val * 10000 + r.val by omega)
    have h1 : (((cfg1.win 2).blk t).view.emb (ix2 r cc)) 1 = cc :=
      Fin.ext (show win1_2.index t (1 : Fin 2) * 64 + 1 * cc.val = cc.val by omega)
    refine (Cert.KernelPay.node_block_at (iblk1 V c 0 t) (iblk1 V c 1 t) r cc).trans ?_
    unfold nodeArr
    rw [h0, h1]
    exact selfT_rows _ _ _ _ r (nrow t r) (blk0_at V c t r) (blk1_at V c t) cc
  funext j
  exact key j

/-- An index of the output array is in step `t`'s block iff each coordinate is in the block's range on its axis. -/
theorem mem_blk2 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v18).slice (win1_2.rect t)).set ↔ _
  rw [View.set_slice_whole, Rect.mem_set_unit]
  exact Iff.rfl

/-- Every row of the output array is in some step's block. -/
theorem cover2 (i : S100000x64.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 64 := (i 1).isLt
  let t : Fin cfg1.N := ⟨(i 0).val / 10000, by omega⟩
  obtain ⟨e0, e1, e2, e3, e4, e5⟩ := idx_facts t
  have ht : t.val = (i 0).val / 10000 := rfl
  refine ⟨t, flush1_2 t, ?_⟩
  rw [mem_blk2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE NODE-TRANSFORM ARRAY after the node kernel's run, for any contents `V` of the arrays at the region's entry. -/
theorem node_final (c : Dev nD) : (dat1 V c).arrAt 2 cfg1.N = nodeArr V c :=
  (dat1 V c).arrAt_eq_of_cover 2 (nodeArr V c) (fun t _ => flushed2_eq V c t) (cover2)

end Cert.NodeRegion

end
-- ==== Proof.RefMsg.lean ====
/-
  The reference's per-edge message and node transform, read index by index.

  The reference joins the neighbour's coordinates and the feature sums into one 81-column row, divides it by the
  squared distance, appends the bond features and multiplies the 103-column row by the weight matrix. Read at an
  edge and a channel this is a sum over 103 products; cut at columns 3 and 81 every term is read through the two
  joins down to the gathered rows, and the result is the message of the specification.
-/
import proofs.«120055_j54099408060448_1_alg».proof.Proof.Gen.ReferenceIdeal.Read
import proofs.«120055_j54099408060448_1_alg».proof.Proof.Spec

noncomputable section

namespace Cert.RefMsg

open Cert.ReferenceIdeal Cert.ReferenceIdeal.Gen Cert.ReferenceIdeal.Read Idealize.ShloMosaic Idealize.ShloMosaic.ValueIdx Cert.EdgeSpec

variable (x0 : (⟨S100000x81, .f32⟩ : BufTy).Contents (Elt Ideal)) (x1 : (⟨S800000x22, .f32⟩ : BufTy).Contents (Elt Ideal))
  (x2 : (⟨S81x64, .f32⟩ : BufTy).Contents (Elt Ideal)) (x3 : (⟨S103x64, .f32⟩ : BufTy).Contents (Elt Ideal))
  (x4 x5 : (⟨S800000, .i32⟩ : BufTy).Contents (Elt Ideal))

/-- The reference's row sum of squared coordinate differences is the squared distance of the edge. -/
theorem dist_at (e : Fin 800000) :
    val_main_v19 (F := Ideal) x0 x4 x5 (ix1 e) = dist2 (val_main_v7 (F := Ideal) x0 x4) (val_main_v14 (F := Ideal) x0 x5) e := by
  rw [val_main_v19_apply]
  rw [show val_main_cst (F := Ideal) (Shape.Idx.first h_S_) = 0 from Ideal.ofBits_zero_f32, zero_add]
  unfold dist2
  refine Finset.sum_congr rfl fun k _ => ?_
  rw [val_main_v18_apply, val_main_v17_apply, val_main_v15_apply, val_main_v16_apply]
  have e1 : idx_main_v15 (idx_main_v19 (ix1 e) k) = ix2 e (c3 k) :=
    funext fun a => Fin.ext (by match a with | ⟨0, _⟩ => rfl | ⟨1, _⟩ => rfl)
  have e2 : idx_main_v16 (idx_main_v19 (ix1 e) k) = ix2 e (c3 k) :=
    funext fun a => Fin.ext (by match a with | ⟨0, _⟩ => rfl | ⟨1, _⟩ => rfl)
  rw [e1, e2]
  rfl

/-- The divisor spread over the 81 columns is the squared distance of the row's edge. -/
theorem divisor_at (e : Fin 800000) (k : Fin 81) :
    val_main_v26 (F := Ideal) x0 x4 x5 (ix2 e k) = dist2 (val_main_v7 (F := Ideal) x0 x4) (val_main_v14 (F := Ideal) x0 x5) e := by
  rw [val_main_v26_apply, val_main_v20_apply]
  have e1 : idx_main_v20 (idx_main_v26 (ix2 e k)) = ix1 e :=
    funext fun a => Fin.ext (by match a with | ⟨0, _⟩ => rfl)
  rw [e1, dist_at]

/-- The joined row at a coordinate column is the neighbour's coordinate. -/
theorem joined_coord (e : Fin 800000) (k : Fin 3) :
    val_main_v25 (F := Ideal) x0 x4 x5 (ix2 e (c3 k)) = val_main_v14 (F := Ideal) x0 x5 (ix2 e (c3 k)) := by
  unfold val_main_v25
  rw [concatenate_pair_apply_left (t := S800000x81) (s₁ := S800000x3) (s₂ := S800000x78) (1 : Fin 2) _ _ concatenates_S800000x3_S800000x78_S800000x81_d1 (ix2 e (c3 k)) rfl (ix2 e k)
    (fun b => by match b with | ⟨0, _⟩ => rfl | ⟨1, _⟩ => rfl)]
  rw [val_main_v21_apply]
  exact congrArg _ (funext fun a => Fin.ext (by match a with | ⟨0, _⟩ => rfl | ⟨1, _⟩ => rfl))

/-- The joined row at a later column is the sum of the two ends' features there. -/
theorem joined_rest (e : Fin 800000) (k : Fin 78) :
    val_main_v25 (F := Ideal) x0 x4 x5 (ix2 e (c78 k))
      = val_main_v7 (F := Ideal) x0 x4 (ix2 e (c78 k)) + val_main_v14 (F := Ideal) x0 x5 (ix2 e (c78 k)) := by
  unfold val_main_v25
  rw [concatenate_pair_apply_right (t := S800000x81) (s₁ := S800000x3) (s₂ := S800000x78) (1 : Fin 2) _ _ concatenates_S800000x3_S800000x78_S800000x81_d1 (ix2 e (c78 k)) rfl rfl (ix2 e k)
    (fun b hb => by match b with | ⟨0, _⟩ => rfl | ⟨1, _⟩ => exact absurd rfl hb)
    (by show k.val + 3 = 3 + k.val; omega)]
  rw [val_main_v24_apply, val_main_v22_apply, val_main_v23_apply]
  have e1 : idx_main_v22 (ix2 e k) = ix2 e (c78 k) :=
    funext fun a => Fin.ext (by match a with | ⟨0, _⟩ => rfl | ⟨1, _⟩ => rfl)
  have e2 : idx_main_v23 (ix2 e k) = ix2 e (c78 k) :=
    funext fun a => Fin.ext (by match a with | ⟨0, _⟩ => rfl | ⟨1, _⟩ => rfl)
  rw [e1, e2]
  rfl

/-- The 103-column feature row at one of its first 81 columns is the divided joined row. -/
theorem feat_left (e : Fin 800000) (k : Fin 81) :
    val_main_v28 (F := Ideal) x0 x1 x4 x5 (ix2 e (⟨k.val, by omega⟩ : Fin 103))
      = Ideal.div (val_main_v25 (F := Ideal) x0 x4 x5 (ix2 e k))
          (dist2 (val_main_v7 (F := Ideal) x0 x4) (val_main_v14 (F := Ideal) x0 x5) e) := by
  unfold val_main_v28
  rw [concatenate_pair_apply_left (t := S800000x103) (s₁ := S800000x81) (s₂ := S800000x22) (1 : Fin 2) _ _ concatenates_S800000x81_S800000x22_S800000x103_d1 (ix2 e (⟨k.val, by omega⟩ : Fin 103)) rfl (ix2 e k)
    (fun b => by match b with | ⟨0, _⟩ => rfl | ⟨1, _⟩ => rfl)]
  rw [val_main_v27_apply, divisor_at]
  rfl

/-- The 103-column feature row at one of its last 22 columns is the bond feature. -/
theorem feat_right (e : Fin 800000) (k : Fin 22) :
    val_main_v28 (F := Ideal) x0 x1 x4 x5 (ix2 e (r22 k)) = x1 (ix2 e k) := by
  unfold val_main_v28
  exact concatenate_pair_apply_right (t := S800000x103) (s₁ := S800000x81) (s₂ := S800000x22) (1 : Fin 2) _ _ concatenates_S800000x81_S800000x22_S800000x103_d1 (ix2 e (r22 k)) rfl rfl (ix2 e k)
    (fun b hb => by match b with | ⟨0, _⟩ => rfl | ⟨1, _⟩ => exact absurd rfl hb)
    (by show k.val + 81 = 81 + k.val; omega)

/-- The reference's message array at edge `e` and channel `c` is the specification's message of the gathered rows. -/
theorem msg_at (e : Fin 800000) (c : Fin 64) :
    val_main_v29 (F := Ideal) x0 x1 x3 x4 x5 (ix2 e c)
      = msg (val_main_v7 (F := Ideal) x0 x4) (val_main_v14 (F := Ideal) x0 x5) x1 x3 e c := by
  have h1 := val_main_v29_apply x0 x1 x3 x4 x5 (ix2 e c)
  have h2 := sum103_split (fun k : Fin 103 => (val_main_v28 (F := Ideal) x0 x1 x4 x5) (lidx_main_v29 (ix2 e c) k) * x3 (ridx_main_v29 (ix2 e c) k))
  rw [h1, h2]
  unfold msg
  have hl : ∀ k : Fin 103, lidx_main_v29 (ix2 e c) k = ix2 e k := fun k =>
    funext fun a => Fin.ext (by match a with | ⟨0, _⟩ => rfl | ⟨1, _⟩ => rfl)
  have hr : ∀ k : Fin 103, ridx_main_v29 (ix2 e c) k = ix2 k c := fun k =>
    funext fun a => Fin.ext (by match a with | ⟨0, _⟩ => rfl | ⟨1, _⟩ => rfl)
  simp only [hl, hr]
  refine congrArg₂ (· + ·) (congrArg₂ (· + ·) ?_ ?_) ?_
  · refine Finset.sum_congr rfl fun k _ => ?_
    rw [show ix2 e (r3 k) = ix2 e (⟨(c3 k).val, by omega⟩ : Fin 103) from rfl, feat_left, joined_coord]
  · refine Finset.sum_congr rfl fun k _ => ?_
    rw [show ix2 e (r78 k) = ix2 e (⟨(c78 k).val, by omega⟩ : Fin 103) from rfl, feat_left, joined_rest]
  · refine Finset.sum_congr rfl fun k _ => ?_
    rw [feat_right]

/-- The reference's node transform at node `n` and channel `c`. -/
theorem self_at (n : Fin 100000) (c : Fin 64) :
    val_main_v0 (F := Ideal) x0 x2 (ix2 n c) = selfT x0 x2 n c := by
  rw [val_main_v0_apply]
  unfold selfT
  refine Finset.sum_congr rfl fun k _ => ?_
  have hl : lidx_main_v0 (ix2 n c) k = ix2 n k :=
    funext fun a => Fin.ext (by match a with | ⟨0, _⟩ => rfl | ⟨1, _⟩ => rfl)
  have hr : ridx_main_v0 (ix2 n c) k = ix2 k c :=
    funext fun a => Fin.ext (by match a with | ⟨0, _⟩ => rfl | ⟨1, _⟩ => rfl)
  rw [hl, hr]

end Cert.RefMsg

end
-- ==== Proof.KernelValue.lean ====
/-
  The idealized kernel program's result as a function of its arguments, and that function is the reference's.

  The last host stretch adds the node kernel's array to the scatter-add, over the source indices, of the edge
  kernel's array into zeros. The node kernel's array is the plain product of the features with the node weights — the
  reference's first product. The edge kernel's array is, edge by edge, the message of the rows gathered at the edge's
  two ends, with the weight matrix cut into its rows 0–2, 3–80 and 81–102 — and the reference's message is the same
  sum over all 103 rows at once. The gathers, the scatter-add and the final sum are the same operations on both
  sides, applied to equal arrays.
-/
import proofs.«120055_j54099408060448_1_alg».proof.Proof.Gen.KernelIdeal.Frame
import proofs.«120055_j54099408060448_1_alg».proof.Proof.Gen.ReferenceIdeal.Read
import proofs.«120055_j54099408060448_1_alg».proof.Proof.EdgeRegion
import proofs.«120055_j54099408060448_1_alg».proof.Proof.NodeRegion
import proofs.«120055_j54099408060448_1_alg».proof.Proof.RefMsg
import Idealize.ShloMosaic.Lib.StableHlo.Run
import Idealize.ShloMosaic.PureOps.Ideal

set_option maxRecDepth 16384

noncomputable section

namespace Cert.KernelValue

open Cert.KernelIdeal Cert.KernelIdeal.Gen Idealize.ShloMosaic Idealize.ShloMosaic.TcCoe Idealize.SL.Sem Idealize.ShloMosaic.StableHlo
open Idealize.ShloMosaic.ValueIdx Cert.EdgeSpec Cert.EdgeRegion Cert.NodeRegion

variable (m : (ℓ : Loc nD τ sig) → Buf (Elt Ideal) ℓ) (ρ : Dev nD → PrngReg)

/-- The launch contents of the six arguments on core `c`. -/
abbrev a0 (c : Dev nD) : S100000x81.Idx → EReal := m ((c : Thread nD τ).loc main_arg0)
abbrev a1 (c : Dev nD) : S800000x22.Idx → EReal := m ((c : Thread nD τ).loc main_arg1)
abbrev a2 (c : Dev nD) : S81x64.Idx → EReal := m ((c : Thread nD τ).loc main_arg2)
abbrev a3 (c : Dev nD) : S103x64.Idx → EReal := m ((c : Thread nD τ).loc main_arg3)
abbrev a4 (c : Dev nD) : S800000.Idx → BitVec 32 := m ((c : Thread nD τ).loc main_arg4)
abbrev a5 (c : Dev nD) : S800000.Idx → BitVec 32 := m ((c : Thread nD τ).loc main_arg5)

/-! ## The arrays the edge kernel finds -/

/-- The rows gathered at the edges' sources: the reference's gather of the same indices. -/
theorem entry_src (c : Dev nD) : (V1 m ρ c main_v6 : S800000x81.Idx → EReal)
    = Cert.ReferenceIdeal.Read.val_main_v7 (F := Ideal) (a0 m c) (a4 m c) := by
  show StableHlo.after hostOps0 (W0 m ρ c) (Proc.devRef .tc main_v6) = _
  after_results <;> rfl

/-- The rows gathered at the edges' destinations. -/
theorem entry_dst (c : Dev nD) : (V1 m ρ c main_v13 : S800000x81.Idx → EReal)
    = Cert.ReferenceIdeal.Read.val_main_v14 (F := Ideal) (a0 m c) (a5 m c) := by
  show StableHlo.after hostOps0 (W0 m ρ c) (Proc.devRef .tc main_v13) = _
  after_results <;> rfl

/-- The bond array is the argument. -/
theorem entry_bond (c : Dev nD) : (V1 m ρ c main_arg1 : S800000x22.Idx → EReal) = a1 m c := by
  show StableHlo.after hostOps0 (W0 m ρ c) (Proc.devRef .tc main_arg1) = _
  after_results <;> rfl

/-- The three weight blocks are rows 0–2, 3–80 and 81–102 of the edge weight matrix. -/
theorem entry_w3 (c : Dev nD) (k : Fin 3) (cc : Fin 64) :
    (V1 m ρ c main_v14 : S3x64.Idx → EReal) (ix2 k cc) = a3 m c (ix2 (r3 k) cc) := by
  have e : (V1 m ρ c main_v14 : S3x64.Idx → EReal) = extractStridedSlice S3x64 ![0, 0] (a3 m c) slices_S103x64_S3x64_0_0 := by
    show StableHlo.after hostOps0 (W0 m ρ c) (Proc.devRef .tc main_v14) = _
    after_results <;> rfl
  rw [e]
  exact extractStridedSlice_apply ![0, 0] (a3 m c) slices_S103x64_S3x64_0_0 (ix2 k cc) (ix2 (r3 k) cc) (fun a => match a with
    | ⟨0, _⟩ => by show k.val = 0 + k.val; omega
    | ⟨1, _⟩ => by show cc.val = 0 + cc.val; omega)
theorem entry_w78 (c : Dev nD) (k : Fin 78) (cc : Fin 64) :
    (V1 m ρ c main_v15 : S78x64.Idx → EReal) (ix2 k cc) = a3 m c (ix2 (r78 k) cc) := by
  have e : (V1 m ρ c main_v15 : S78x64.Idx → EReal) = extractStridedSlice S78x64 ![3, 0] (a3 m c) slices_S103x64_S78x64_3_0 := by
    show StableHlo.after hostOps0 (W0 m ρ c) (Proc.devRef .tc main_v15) = _
    after_results <;> rfl
  rw [e]
  exact extractStridedSlice_apply ![3, 0] (a3 m c) slices_S103x64_S78x64_3_0 (ix2 k cc) (ix2 (r78 k) cc) (fun a => match a with
    | ⟨0, _⟩ => by show 3 + k.val = 3 + k.val; omega
    | ⟨1, _⟩ => by show cc.val = 0 + cc.val; omega)
theorem entry_w22 (c : Dev nD) (k : Fin 22) (cc : Fin 64) :
    (V1 m ρ c main_v16 : S22x64.Idx → EReal) (ix2 k cc) = a3 m c (ix2 (r22 k) cc) := by
  have e : (V1 m ρ c main_v16 : S22x64.Idx → EReal) = extractStridedSlice S22x64 ![81, 0] (a3 m c) slices_S103x64_S22x64_81_0 := by
    show StableHlo.after hostOps0 (W0 m ρ c) (Proc.devRef .tc main_v16) = _
    after_results <;> rfl
  rw [e]
  exact extractStridedSlice_apply ![81, 0] (a3 m c) slices_S103x64_S22x64_81_0 (ix2 k cc) (ix2 (r22 k) cc) (fun a => match a with
    | ⟨0, _⟩ => by show 81 + k.val = 81 + k.val; omega
    | ⟨1, _⟩ => by show cc.val = 0 + cc.val; omega)

/-- THE EDGE KERNEL'S ARRAY is the reference's message array. -/
theorem edge_is_ref (c : Dev nD) : edgeArr (V1 m ρ) c
    = Cert.ReferenceIdeal.Read.val_main_v29 (F := Ideal) (a0 m c) (a1 m c) (a3 m c) (a4 m c) (a5 m c) := by
  funext i
  obtain ⟨e, cc, rfl⟩ : ∃ (e : Fin 800000) (cc : Fin 64), i = ix2 e cc := ⟨i 0, i 1, eq_ix2 i⟩
  rw [Cert.RefMsg.msg_at]
  show msgParts (V1 m ρ c main_v6 : S800000x81.Idx → EReal) (V1 m ρ c main_v13 : S800000x81.Idx → EReal)
      (V1 m ρ c main_arg1 : S800000x22.Idx → EReal) (V1 m ρ c main_v14 : S3x64.Idx → EReal)
      (V1 m ρ c main_v15 : S78x64.Idx → EReal) (V1 m ρ c main_v16 : S22x64.Idx → EReal) e cc = _
  rw [entry_src, entry_dst, entry_bond]
  exact msgParts_eq_msg _ _ _ (a3 m c) _ _ _ (entry_w3 m ρ c) (entry_w78 m ρ c) (entry_w22 m ρ c) e cc

/-! ## The arrays the node kernel finds -/

theorem entry_feat (c : Dev nD) : (V2 m ρ c main_arg0 : S100000x81.Idx → EReal) = a0 m c := by
  refine (W2_of_ne m ρ c main_arg0 (by decide)).trans ?_
  show StableHlo.after hostOps0 (W0 m ρ c) (Proc.devRef .tc main_arg0) = _
  after_results <;> rfl
theorem entry_ws (c : Dev nD) : (V2 m ρ c main_arg2 : S81x64.Idx → EReal) = a2 m c := by
  refine (W2_of_ne m ρ c main_arg2 (by decide)).trans ?_
  show StableHlo.after hostOps0 (W0 m ρ c) (Proc.devRef .tc main_arg2) = _
  after_results <;> rfl

/-- THE NODE KERNEL'S ARRAY is the reference's node transform. -/
theorem node_is_ref (c : Dev nD) : nodeArr (V2 m ρ) c
    = Cert.ReferenceIdeal.Read.val_main_v0 (F := Ideal) (a0 m c) (a2 m c) := by
  funext i
  obtain ⟨n, cc, rfl⟩ : ∃ (n : Fin 100000) (cc : Fin 64), i = ix2 n cc := ⟨i 0, i 1, eq_ix2 i⟩
  rw [Cert.RefMsg.self_at]
  show selfT (V2 m ρ c main_arg0 : S100000x81.Idx → EReal) (V2 m ρ c main_arg2 : S81x64.Idx → EReal) n cc = _
  rw [entry_feat, entry_ws]

/-! ## After the two regions -/

theorem exit_node (c : Dev nD) : (W3 m ρ c (Proc.devRef .tc main_v18) : S100000x64.Idx → EReal) = nodeArr (V2 m ρ) c :=
  (W3_arr m ρ c 2).trans (node_final (V2 m ρ) c)

theorem exit_edge (c : Dev nD) : (W3 m ρ c (Proc.devRef .tc main_v17) : S800000x64.Idx → EReal) = edgeArr (V1 m ρ) c :=
  (W3_of_ne m ρ c main_v17 (by decide)).trans ((W2_arr m ρ c 6).trans (edge_final (V1 m ρ) c))

theorem exit_src (c : Dev nD) : (W3 m ρ c (Proc.devRef .tc main_arg4) : S800000.Idx → BitVec 32) = a4 m c := by
  refine (W3_of_ne m ρ c main_arg4 (by decide)).trans ((W2_of_ne m ρ c main_arg4 (by decide)).trans ?_)
  show StableHlo.after hostOps0 (W0 m ρ c) (Proc.devRef .tc main_arg4) = _
  after_results <;> rfl

/-- THE KERNEL PROGRAM'S RESULT is the reference's result term of the same arguments. -/
theorem kernel_result (c : Dev nD) : (W4 m ρ c (Proc.devRef .tc main_v22) : S100000x64.Idx → EReal)
    = Cert.ReferenceIdeal.Read.val_main_v33 (F := Ideal) (a0 m c) (a1 m c) (a2 m c) (a3 m c) (a4 m c) (a5 m c) := by
  show StableHlo.after hostOps2 (W3 m ρ c) (Proc.devRef .tc main_v22) = _
  after_results
  rw [exit_node, exit_edge, exit_src, node_is_ref, edge_is_ref]
  rfl

end Cert.KernelValue

end
-- ==== Proof.lean ====
/-
  One message-passing layer over a graph of 100000 nodes and 800000 edges: the kernel program against its reference,
  at the ideal values.

  Both programs compute, for every node, the product of its 81 features with the 81 × 64 node weights plus the sum of
  the messages of the edges that start at it. An edge's message is its 103-entry feature row times the 103 × 64 edge
  weights, the row being the neighbour's three coordinates and the 78 sums of the two ends' remaining features, all
  divided by the squared distance of the two ends, followed by the edge's 22 bond features.

  The reference forms the 103-entry row and takes one product. The kernel program gathers the same rows with the same
  host operations, cuts the edge weights into rows 0–2, 3–80 and 81–102, and on blocks of 4000 edges takes three
  products — of the 3, the 78 and the 22 entries — and adds them; a second kernel takes the node product on blocks of
  10000 nodes; the same host scatter-add and sum finish. A sum of 103 extended reals is the sum of its first 3, next
  78 and last 22 terms, addition being commutative and associative there, so the two message arrays agree entry by
  entry whatever the inputs (an edge of zero length divides by zero on both sides alike), and the precondition is not
  used for the values. The format changes before the matrix unit are the identity on extended reals.

  The three frame claims are the generated frames (the reference's is its generated run with the result dropped); the
  idealization rewrote nothing, so its claim is trivial; the value claim is assembled below from the kernel program's
  run with its result named, the reading of that result, and the reference's generated run.
-/
import proofs.«120055_j54099408060448_1_alg».proof.Defs
import proofs.«120055_j54099408060448_1_alg».proof.Proof.Gen.Kernel
import proofs.«120055_j54099408060448_1_alg».proof.Proof.Gen.Kernel.Skeleton
import proofs.«120055_j54099408060448_1_alg».proof.Proof.Gen.Kernel.Launch
import proofs.«120055_j54099408060448_1_alg».proof.Proof.Gen.Kernel.Points
import proofs.«120055_j54099408060448_1_alg».proof.Proof.Gen.Kernel.Frame
import proofs.«120055_j54099408060448_1_alg».proof.Proof.Gen.KernelIdeal
import proofs.«120055_j54099408060448_1_alg».proof.Proof.Gen.KernelIdeal.Skeleton
import proofs.«120055_j54099408060448_1_alg».proof.Proof.Gen.KernelIdeal.Launch
import proofs.«120055_j54099408060448_1_alg».proof.Proof.Gen.KernelIdeal.Points
import proofs.«120055_j54099408060448_1_alg».proof.Proof.Gen.KernelIdeal.Frame
import proofs.«120055_j54099408060448_1_alg».proof.Proof.Gen.ReferenceIdeal
import proofs.«120055_j54099408060448_1_alg».proof.Proof.Gen.ReferenceIdeal.Run
import proofs.«120055_j54099408060448_1_alg».proof.Proof.Gen.ReferenceIdeal.Read
import proofs.«120055_j54099408060448_1_alg».proof.Proof.Gen.Pre_finite_inputs
import proofs.«120055_j54099408060448_1_alg».proof.Proof.KernelRun
import proofs.«120055_j54099408060448_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel program's is
    the reference's result term of its own arguments, and the arguments agree. -/
theorem algebraic : Cert.algebraic_KernelIdeal_ReferenceIdeal := by
  intro m ρ m' ρ' _ hagree
  refine ⟨_, Cert.KernelRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  exact (Cert.KernelValue.kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
